-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S6144x4096 : Shape := ⟨2, ![6144, 4096]⟩
abbrev S6144 : Shape := ⟨1, ![6144]⟩
abbrev S192x4096 : Shape := ⟨2, ![192, 4096]⟩
abbrev S4096x64 : Shape := ⟨2, ![4096, 64]⟩
abbrev S1024x64 : Shape := ⟨2, ![1024, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S6144x4096 : S_.BroadcastsInDim S6144x4096 (![] : Fin 0 → Fin S6144x4096.rank)
  reducesTo_S6144x4096_S_d0_1 : S6144x4096.ReducesTo [0, 1] S_
  bcast_S_S6144 : S_.BroadcastsInDim S6144 (![] : Fin 0 → Fin S6144.rank)
  reducesTo_S6144_S_d0 : S6144.ReducesTo [0] S_
  bcast_S_S192x4096 : S_.BroadcastsInDim S192x4096 (![] : Fin 0 → Fin S192x4096.rank)
  reducesTo_S192x4096_S_d0_1 : S192x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S4096x64 .f32) (main_arg5 : FVec F S1024x64 .f32) (main_arg6 : FVec F S1024x64 .f32) (main_v13 : IVec S_ 1) (main_v16 : IVec S192x4096 1) : IVec S_ 1 :=
  let main_c_5 : IVec S_ 1 := constantI S_ 1 1#1
  let main_v17 : IVec S_ 1 := (fun x v => Host.reduce IntOp.andi x v reducesTo_S192x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  main_v33

def fn {F : FTy → Type} [FloatOps F] (main_arg0 : FVec F S16384x4096 .f32) (main_arg1 : FVec F S6144x4096 .f32) (main_arg2 : FVec F S6144 .f32) (main_arg3 : FVec F S192x4096 .f32) (main_arg4 : FVec F S4096x64 .f32) (main_arg5 : FVec F S1024x64 .f32) (main_arg6 : FVec F S1024x64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S6144x4096 .f32 := Host.absf main_arg1
  let main_cst_0 : FVec F S_ .f32 := constant S_ .f32 0x7F800000#32
  let main_v5 : FVec F S6144x4096 .f32 := broadcastInDim S6144x4096 ![] bcast_S_S6144x4096 main_cst_0
  let main_v6 : IVec S6144x4096 1 := cmpf .olt main_v4 main_v5
  let main_c_1 : IVec S_ 1 := constantI S_ 1 1#1
  let main_v7 : IVec S_ 1 := (fun x v => Host.reduce IntOp.andi x v reducesTo_S6144x4096_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S192x4096 .f32 := Host.absf main_arg3
  let main_cst_4 : FVec F S_ .f32 := constant S_ .f32 0x7F800000#32
  let main_v15 : FVec F S192x4096 .f32 := broadcastInDim S192x4096 ![] bcast_S_S192x4096 main_cst_4
  let main_v16 : IVec S192x4096 1 := cmpf .olt main_v14 main_v15
  fn_part1 (F := F) main_arg4 main_arg5 main_arg6 main_v13 main_v16
-- ==== Kernel.lean ====
abbrev S16384x4096 : Shape := ⟨2, ![16384, 4096]⟩
abbrev S6144x4096 : Shape := ⟨2, ![6144, 4096]⟩
abbrev S6144 : Shape := ⟨1, ![6144]⟩
abbrev S192x4096 : Shape := ⟨2, ![192, 4096]⟩
abbrev S4096x64 : Shape := ⟨2, ![4096, 64]⟩
abbrev S1024x64 : Shape := ⟨2, ![1024, 64]⟩
abbrev S64x4096 : Shape := ⟨2, ![64, 4096]⟩
abbrev S4096x4096 : Shape := ⟨2, ![4096, 4096]⟩
abbrev S1024x4096 : Shape := ⟨2, ![1024, 4096]⟩
abbrev S1x6144 : Shape := ⟨2, ![1, 6144]⟩
abbrev S16384x6144 : Shape := ⟨2, ![16384, 6144]⟩
abbrev S512x4096 : Shape := ⟨2, ![512, 4096]⟩
abbrev S1x512 : Shape := ⟨2, ![1, 512]⟩
abbrev S512x512 : Shape := ⟨2, ![512, 512]⟩

abbrev nBuf : Space → Nat
  | .hbm => 18
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S6144x4096, .f32⟩
  | .hbm, ⟨2, _⟩ => ⟨S6144, .f32⟩
  | .hbm, ⟨3, _⟩ => ⟨S192x4096, .f32⟩
  | .hbm, ⟨4, _⟩ => ⟨S4096x64, .f32⟩
  | .hbm, ⟨5, _⟩ => ⟨S1024x64, .f32⟩
  | .hbm, ⟨6, _⟩ => ⟨S1024x64, .f32⟩
  | .hbm, ⟨7, _⟩ => ⟨S64x4096, .f32⟩
  | .hbm, ⟨8, _⟩ => ⟨S4096x4096, .f32⟩
  | .hbm, ⟨9, _⟩ => ⟨S64x4096, .f32⟩
  | .hbm, ⟨10, _⟩ => ⟨S1024x4096, .f32⟩
  | .hbm, ⟨11, _⟩ => ⟨S64x4096, .f32⟩
  | .hbm, ⟨12, _⟩ => ⟨S1024x4096, .f32⟩
  | .hbm, ⟨13, _⟩ => ⟨S6144x4096, .f32⟩
  | .hbm, ⟨14, _⟩ => ⟨S6144x4096, .f32⟩
  | .hbm, ⟨15, _⟩ => ⟨S6144x4096, .bf16⟩
  | .hbm, ⟨16, _⟩ => ⟨S1x6144, .f32⟩
  | .hbm, ⟨17, _⟩ => ⟨S16384x6144, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S192x4096_S64x4096_0_0 : S192x4096.Slices ![0, 0] S64x4096
  slices_S192x4096_S64x4096_64_0 : S192x4096.Slices ![64, 0] S64x4096
  slices_S192x4096_S64x4096_128_0 : S192x4096.Slices ![128, 0] S64x4096
  concatenates_S4096x4096_S1024x4096_S1024x4096_S6144x4096_d0 : Shape.Concatenates [S4096x4096, S1024x4096, S1024x4096] S6144x4096 0
  bitsLt_bf16_f32 : FTy.bits .bf16 < FTy.bits .f32
  shapeCasts_S6144_S1x6144 : S6144.ShapeCasts S1x6144
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S4096x64_S64x4096_S4096x4096_1_0_0_1_n_n_wf : DotDims.WF S4096x64 S64x4096 S4096x4096 [1] [0] [0] [1] [] []
  dot_S1024x64_S64x4096_S1024x4096_1_0_0_1_n_n_wf : DotDims.WF S1024x64 S64x4096 S1024x4096 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S6144x4096.size a
  hwx0_1 : ∀ i : grid0.Coords, EltTy.bits .bf16 = 32 ∨ (Rect.block (s := S6144x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x6144.size a
  hwx0_3 : ∀ i : grid0.Coords, EltTy.bits .f32 = 32 ∨ (Rect.block (s := S16384x6144) S512x512.size (cc0_transform_3 i) (hinb0_3 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S1024x64_S64x4096_S1024x4096_1_0_0_1_n_n : DotDims S1024x64 S64x4096 S1024x4096 where
  lhsContracting := [1]
  rhsContracting := [0]
  lhsNonContracting := [0]
  rhsNonContracting := [1]
  lhsBatch := []
  rhsBatch := []
  wf := dot_S1024x64_S64x4096_S1024x4096_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S6144x4096 : Shape := ⟨2, ![6144, 4096]⟩
abbrev S6144 : Shape := ⟨1, ![6144]⟩
abbrev S192x4096 : Shape := ⟨2, ![192, 4096]⟩
abbrev S4096x64 : Shape := ⟨2, ![4096, 64]⟩
abbrev S1024x64 : Shape := ⟨2, ![1024, 64]⟩
abbrev S16384x6144 : Shape := ⟨2, ![16384, 6144]⟩
abbrev S1x6144 : Shape := ⟨2, ![1, 6144]⟩
abbrev S16384x192 : Shape := ⟨2, ![16384, 192]⟩
abbrev S16384x64 : Shape := ⟨2, ![16384, 64]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S6144x4096, .f32⟩
  | .hbm, ⟨2, _⟩ => ⟨S6144, .f32⟩
  | .hbm, ⟨3, _⟩ => ⟨S192x4096, .f32⟩
  | .hbm, ⟨4, _⟩ => ⟨S4096x64, .f32⟩
  | .hbm, ⟨5, _⟩ => ⟨S1024x64, .f32⟩
  | .hbm, ⟨6, _⟩ => ⟨S1024x64, .f32⟩
  | .hbm, ⟨7, _⟩ => ⟨S16384x6144, .f32⟩
  | .hbm, ⟨8, _⟩ => ⟨S1x6144, .f32⟩
  | .hbm, ⟨9, _⟩ => ⟨S16384x6144, .f32⟩
  | .hbm, ⟨10, _⟩ => ⟨S16384x6144, .f32⟩
  | .hbm, ⟨11, _⟩ => ⟨S16384x192, .f32⟩
  | .hbm, ⟨12, _⟩ => ⟨S16384x64, .f32⟩
  | .hbm, ⟨13, _⟩ => ⟨S16384x4096, .f32⟩
  | .hbm, ⟨14, _⟩ => ⟨S16384x64, .f32⟩
  | .hbm, ⟨15, _⟩ => ⟨S16384x1024, .f32⟩
  | .hbm, ⟨16, _⟩ => ⟨S16384x64, .f32⟩
  | .hbm, ⟨17, _⟩ => ⟨S16384x1024, .f32⟩
  | .hbm, ⟨18, _⟩ => ⟨S16384x6144, .f32⟩
  | .hbm, ⟨19, _⟩ => ⟨S16384x6144, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  slices_S16384x192_S16384x64_0_0 : S16384x192.Slices ![0, 0] S16384x64
  slices_S16384x192_S16384x64_0_64 : S16384x192.Slices ![0, 64] S16384x64
  slices_S16384x192_S16384x64_0_128 : S16384x192.Slices ![0, 128] S16384x64
  concatenates_S16384x4096_S16384x1024_S16384x1024_S16384x6144_d1 : Shape.Concatenates [S16384x4096, S16384x1024, S16384x1024] S16384x6144 1
  dot_S16384x4096_S6144x4096_S16384x6144_1_1_0_0_n_n_wf : DotDims.WF S16384x4096 S6144x4096 S16384x6144 [1] [1] [0] [0] [] []
  dot_S16384x4096_S192x4096_S16384x192_1_1_0_0_n_n_wf : DotDims.WF S16384x4096 S192x4096 S16384x192 [1] [1] [0] [0] [] []
  dot_S16384x64_S4096x64_S16384x4096_1_1_0_0_n_n_wf : DotDims.WF S16384x64 S4096x64 S16384x4096 [1] [1] [0] [0] [] []
  dot_S16384x64_S1024x64_S16384x1024_1_1_0_0_n_n_wf : DotDims.WF S16384x64 S1024x64 S16384x1024 [1] [1] [0] [0] [] []

variable [Facts₀]

def dot_S16384x4096_S6144x4096_S16384x6144_1_1_0_0_n_n : DotDims S16384x4096 S6144x4096 S16384x6144 where
  lhsContracting := [1]
  rhsContracting := [1]
  lhsNonContracting := [0]
  rhsNonContracting := [0]
  lhsBatch := []
  rhsBatch := []
  wf := dot_S16384x4096_S6144x4096_S16384x6144_1_1_0_0_n_n_wf
def dot_S16384x4096_S192x4096_S16384x192_1_1_0_0_n_n : DotDims S16384x4096 S192x4096 S16384x192 where
  lhsContracting := [1]
  rhsContracting := [1]
  lhsNonContracting := [0]
  rhsNonContracting := [0]
  lhsBatch := []
  rhsBatch := []
  wf := dot_S16384x4096_S192x4096_S16384x192_1_1_0_0_n_n_wf
def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf
def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf

class Facts : Prop extends Facts₀ where

variable [Facts]
-- ==== Proof.KernelEntry.lean ====
/-
  The launch of the one tiled region of `Kernel`, at any float instance: the host lines before it (three
  row-slices of the low-rank factor, three small products, their stacking, the sum with the dense weight, the
  change of format, the bias as a row) leave every argument array as launched; the region's grid is 32 × 12;
  at a point the body reads a 512 × 4096 tile of the activations, a 512 × 4096 tile of the merged weight and a
  1 × 512 piece of the bias row, and stores one 512 × 512 tile of the result — the product of the first tile
  with the transpose of the second, plus the bias piece on every row. The run of @main therefore ends, faults
  nowhere, leaves the seven arguments unchanged, and leaves the result array at what the tiles written back
  make of it.
-/
import proofs.«178482_j49306224558199_2_alg».proof.Proof.Gen.Kernel.Launch
import proofs.«178482_j49306224558199_2_alg».proof.Proof.Gen.Kernel.Skeleton
import proofs.«178482_j49306224558199_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch memory after the ten host lines. -/
abbrev V (c : Dev nD) (b : Ref sig .tc) : Buf (Elt F) ((c : Thread nD τ).loc b) := StableHlo.after hostOps0 (fun b => m (c, b)) b

/-- No host line allocates a buffer. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the ten host lines writes is found by the region as it was launched. -/
theorem V_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes, StableHlo.reshape_writes, Finset.mem_singleton]
    obtain ⟨h0, h1, h2, h3, h4, h5, h6, h7, h8, h9⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) := V_unwritten m c _ (by decide)
theorem V_main_arg1 (c : Dev nD) : V m c main_arg1 = m ((c : Thread nD τ).loc main_arg1) := V_unwritten m c _ (by decide)
theorem V_main_arg2 (c : Dev nD) : V m c main_arg2 = m ((c : Thread nD τ).loc main_arg2) := V_unwritten m c _ (by decide)
theorem V_main_arg3 (c : Dev nD) : V m c main_arg3 = m ((c : Thread nD τ).loc main_arg3) := V_unwritten m c _ (by decide)
theorem V_main_arg4 (c : Dev nD) : V m c main_arg4 = m ((c : Thread nD τ).loc main_arg4) := V_unwritten m c _ (by decide)
theorem V_main_arg5 (c : Dev nD) : V m c main_arg5 = m ((c : Thread nD τ).loc main_arg5) := V_unwritten m c _ (by decide)
theorem V_main_arg6 (c : Dev nD) : V m c main_arg6 = m ((c : Thread nD τ).loc main_arg6) := V_unwritten m c _ (by decide)

/-! ## The tiles -/

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its tile at every point, whether the point fetches it or the
    tile is the one already there (its index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its tile at every point, whether the point fetches it or the
    tile is the one already there (its index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its tile at every point, whether the point fetches it or the
    tile is the one already there (its index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.KernelBody.lean ====
/-
  The body of the tiled region of `Kernel` at one grid point, and the run of the whole program, at any float
  instance. On a 512 × 4096 tile `x` of the activations, a 512 × 4096 tile `w` of the merged weight and a 1 × 512
  piece `b` of the bias row, the body stores the one 512 × 512 tile `x · wᵀ + b` (the bias piece added on every
  row) over the whole of the result's staging buffer and changes nothing else. Launched at the 384 grid points it
  terminates without a fault; the seven argument arrays end as they were launched and the result array ends at
  the tiles written back.
-/
import proofs.«178482_j49306224558199_2_alg».proof.Proof.KernelEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole of its buffer -/

abbrev rX : Rect S512x4096 := Rect.unit (s := S512x4096) ![0, 0] S512x4096.size inb_S512x4096_S512x4096_0_0
abbrev rB : Rect S1x512 := Rect.unit (s := S1x512) ![0, 0] S1x512.size inb_S1x512_S1x512_0_0
abbrev rO : Rect S512x512 := Rect.unit (s := S512x512) ![0, 0] S512x512.size inb_S512x512_S512x512_0_0

/-- The result's staging buffer after the body: its one store, of the product-plus-bias of the three tiles read. -/
def out0_3 (x0 : Vec F S512x4096 .f32) (x1 : Vec F S512x4096 .bf16) (x2 : Vec F S1x512 .f32) : Vec F S512x512 .f32 :=
  View.canon [⟨rO, k0_pay1 (View.ld x0 rX) (View.ld x1 rX) (View.ld x2 rB)⟩]

/-- The one store covers the buffer. -/
theorem cover0_3 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The body's triple -/

set_option maxHeartbeats 1000000 in
/-- On whole staging buffers, the three inputs' at contents `x0 x1 x2` and the result's at anything, the body runs
    to the end leaving the inputs' as they were and the result's at `out0_3 x0 x1 x2`. -/
theorem sound_kernel (c : Dev nD) (E : Set ℕ) (i : grid0.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S512x512 .f32) (harg5 : arg5.IsWhole)
    (x0 : Vec F S512x4096 .f32) (x1 : Vec F S512x4096 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core `c`: the arrays as the region finds them; after the body at point `t` each input's buffer at its tile
    and the result's at `out0_3` of the three input tiles; the rest of the core's state untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their tiles, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the region ends at what the write-backs make of
    it, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with its result named: the result array ends at the tiles written back over it, and the seven argument
    arrays end as launched. -/
theorem run_result : θ_run defs (onTc (τ := τ) (main (F := F))) ⟨m, fun _ => 0, ρ⟩ (fun r => ∀ c : Dev nD,
      r.2.mem ((c.tc : Thread nD τ).loc main_v10) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- The frame: @main terminates, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Region

end
-- ==== Proof.KernelIdealEntry.lean ====
/-
  The launch of the one tiled region of `KernelIdeal`, at any float instance: the host lines before it (three
  row-slices of the low-rank factor, three small products, their stacking, the sum with the dense weight, the
  change of format, the bias as a row) leave every argument array as launched; the region's grid is 32 × 12;
  at a point the body reads a 512 × 4096 tile of the activations, a 512 × 4096 tile of the merged weight and a
  1 × 512 piece of the bias row, and stores one 512 × 512 tile of the result — the product of the first tile
  with the transpose of the second, plus the bias piece on every row. The run of @main therefore ends, faults
  nowhere, leaves the seven arguments unchanged, and leaves the result array at what the tiles written back
  make of it.
-/
import proofs.«178482_j49306224558199_2_alg».proof.Proof.Gen.KernelIdeal.Launch
import proofs.«178482_j49306224558199_2_alg».proof.Proof.Gen.KernelIdeal.Skeleton
import proofs.«178482_j49306224558199_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch memory after the ten host lines. -/
abbrev V (c : Dev nD) (b : Ref sig .tc) : Buf (Elt F) ((c : Thread nD τ).loc b) := StableHlo.after hostOps0 (fun b => m (c, b)) b

/-- No host line allocates a buffer. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the ten host lines writes is found by the region as it was launched. -/
theorem V_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes, StableHlo.reshape_writes, Finset.mem_singleton]
    obtain ⟨h0, h1, h2, h3, h4, h5, h6, h7, h8, h9⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) := V_unwritten m c _ (by decide)
theorem V_main_arg1 (c : Dev nD) : V m c main_arg1 = m ((c : Thread nD τ).loc main_arg1) := V_unwritten m c _ (by decide)
theorem V_main_arg2 (c : Dev nD) : V m c main_arg2 = m ((c : Thread nD τ).loc main_arg2) := V_unwritten m c _ (by decide)
theorem V_main_arg3 (c : Dev nD) : V m c main_arg3 = m ((c : Thread nD τ).loc main_arg3) := V_unwritten m c _ (by decide)
theorem V_main_arg4 (c : Dev nD) : V m c main_arg4 = m ((c : Thread nD τ).loc main_arg4) := V_unwritten m c _ (by decide)
theorem V_main_arg5 (c : Dev nD) : V m c main_arg5 = m ((c : Thread nD τ).loc main_arg5) := V_unwritten m c _ (by decide)
theorem V_main_arg6 (c : Dev nD) : V m c main_arg6 = m ((c : Thread nD τ).loc main_arg6) := V_unwritten m c _ (by decide)

/-! ## The tiles -/

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its tile at every point, whether the point fetches it or the
    tile is the one already there (its index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its tile at every point, whether the point fetches it or the
    tile is the one already there (its index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its tile at every point, whether the point fetches it or the
    tile is the one already there (its index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.KernelIdealBody.lean ====
/-
  The body of the tiled region of `KernelIdeal` at one grid point, and the run of the whole program, at any float
  instance. On a 512 × 4096 tile `x` of the activations, a 512 × 4096 tile `w` of the merged weight and a 1 × 512
  piece `b` of the bias row, the body stores the one 512 × 512 tile `x · wᵀ + b` (the bias piece added on every
  row) over the whole of the result's staging buffer and changes nothing else. Launched at the 384 grid points it
  terminates without a fault; the seven argument arrays end as they were launched and the result array ends at
  the tiles written back.
-/
import proofs.«178482_j49306224558199_2_alg».proof.Proof.KernelIdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole of its buffer -/

abbrev rX : Rect S512x4096 := Rect.unit (s := S512x4096) ![0, 0] S512x4096.size inb_S512x4096_S512x4096_0_0
abbrev rB : Rect S1x512 := Rect.unit (s := S1x512) ![0, 0] S1x512.size inb_S1x512_S1x512_0_0
abbrev rO : Rect S512x512 := Rect.unit (s := S512x512) ![0, 0] S512x512.size inb_S512x512_S512x512_0_0

/-- The result's staging buffer after the body: its one store, of the product-plus-bias of the three tiles read. -/
def out0_3 (x0 : Vec F S512x4096 .f32) (x1 : Vec F S512x4096 .bf16) (x2 : Vec F S1x512 .f32) : Vec F S512x512 .f32 :=
  View.canon [⟨rO, k0_pay1 (View.ld x0 rX) (View.ld x1 rX) (View.ld x2 rB)⟩]

/-- The one store covers the buffer. -/
theorem cover0_3 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The body's triple -/

set_option maxHeartbeats 1000000 in
/-- On whole staging buffers, the three inputs' at contents `x0 x1 x2` and the result's at anything, the body runs
    to the end leaving the inputs' as they were and the result's at `out0_3 x0 x1 x2`. -/
theorem sound_kernel (c : Dev nD) (E : Set ℕ) (i : grid0.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S512x512 .f32) (harg5 : arg5.IsWhole)
    (x0 : Vec F S512x4096 .f32) (x1 : Vec F S512x4096 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core `c`: the arrays as the region finds them; after the body at point `t` each input's buffer at its tile
    and the result's at `out0_3` of the three input tiles; the rest of the core's state untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their tiles, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the region ends at what the write-backs make of
    it, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with its result named: the result array ends at the tiles written back over it, and the seven argument
    arrays end as launched. -/
theorem run_result : θ_run defs (onTc (τ := τ) (main (F := F))) ⟨m, fun _ => 0, ρ⟩ (fun r => ∀ c : Dev nD,
      r.2.mem ((c.tc : Thread nD τ).loc main_v10) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- The frame: @main terminates, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Region

end
-- ==== Proof.TileValue.lean ====
/-
  The tile the body stores, read at one entry, on the extended reals: at row `p` and column `q` of the
  512 × 512 tile it is the sum over the 4096 shared columns of the activation tile's row `p` against the
  weight tile's row `q`, plus the bias piece's entry `q`. The change of format on the way into the product is the
  identity there, the product starts from a zero accumulator, and the bias row is repeated down the rows.
-/
import proofs.«178482_j49306224558199_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.TcCoe Idealize.SL.Sem
open Idealize.ShloMosaic.ValueIdx

/-- The output's row coordinate is the left operand's row. -/
theorem lhs_row (i : S512x512.Idx) (q : dot_S512x4096_S512x4096_S512x512_1_1_0_0_n_n.contr.Idx) : (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
/-- The output's column coordinate is the right operand's row: the product is against the transpose. -/
theorem rhs_row (i : S512x512.Idx) (q : dot_S512x4096_S512x4096_S512x512_1_1_0_0_n_n.contr.Idx) : (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl

/-- The matrix unit's product into a zero accumulator, at an entry: the sum over the shared axis. -/
theorem product_apply (a : FVec Ideal S512x4096 .bf16) (b : FVec Ideal S512x4096 .bf16) (p q : Fin 512) :
    matmul dot_S512x4096_S512x4096_S512x512_1_1_0_0_n_n none a b (constant S512x512 .f32 0x00000000#32) (ix2 p q) = ∑ k : Fin 4096, a (ix2 p k) * b (ix2 q k) := by
  refine (Ideal.matmul_constant_zero_apply dot_S512x4096_S512x4096_S512x512_1_1_0_0_n_n none a b (ix2 p q)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k := funext fun ax => Fin.ext (by
    match ax with
    | ⟨0, _⟩ => exact lhs_row _ _
    | ⟨1, _⟩ => exact (dot_S512x4096_S512x4096_S512x512_1_1_0_0_n_n.lhsIdx_val_of_single rfl _ _).trans hk)
  have er : dot_S512x4096_S512x4096_S512x512_1_1_0_0_n_n.rhsIdx (ix2 p q) ((contrEquiv1 dot_S512x4096_S512x4096_S512x512_1_1_0_0_n_n 4096 rfl rfl).symm k) = ix2 q k := funext fun ax => Fin.ext (by
    match ax with
    | ⟨0, _⟩ => exact rhs_row _ _
    | ⟨1, _⟩ => exact (dot_S512x4096_S512x4096_S512x512_1_1_0_0_n_n.rhsIdx_val_of_single rfl _ _).trans hk)
  rw [el, er]

/-- The stored tile at row `p`, column `q`. -/
theorem tile_apply (x0 : Vec Ideal S512x4096 .f32) (x1 : Vec Ideal S512x4096 .bf16) (x2 : Vec Ideal S1x512 .f32) (p q : Fin 512) :
    k0_pay1 (F := Ideal) x0 x1 x2 (ix2 p q) = (∑ k : Fin 4096, x0 (ix2 p k) * x1 (ix2 q k)) + x2 (ix2 (0 : Fin 1) q) := by
  unfold k0_pay1
  refine (addf_apply _ _ (ix2 p q)).trans ?_
  rw [shapeCast_self, shapeCast_self, broadcastTo_1b_ab_apply, product_apply]
  rfl

end Cert.KernelIdeal.TileValue

end
-- ==== Proof.ResultSpec.lean ====
/-
  The kernel's result as one function of the three arrays its tiled region reads, on the extended reals: entry
  (s, o) is the sum over the 4096 columns of row `s` of the activations against row `o` of the merged weight, plus
  entry `o` of the bias row.
-/
import proofs.«178482_j49306224558199_2_alg».proof.KernelIdeal
import Idealize.ShloMosaic.Lib.ValueIdx

noncomputable section

namespace Cert.KernelIdeal.ArrayValue

open Cert.KernelIdeal Idealize.ShloMosaic Idealize.ShloMosaic.ValueIdx

/-- The row and the column of an entry of the result, as numbers below the literal extents. -/
abbrev row (i : S16384x6144.Idx) : Fin 16384 := ⟨(i 0).val, (i 0).isLt⟩
abbrev col (i : S16384x6144.Idx) : Fin 6144 := ⟨(i 1).val, (i 1).isLt⟩

/-- The product of the activations with the transpose of the merged weight, plus the bias row on every row. -/
def G (xA : Vec Ideal S16384x4096 .f32) (wc : Vec Ideal S6144x4096 .bf16) (brow : Vec Ideal S1x6144 .f32) : Vec Ideal S16384x6144 .f32 :=
  fun i => (∑ k : Fin 4096, xA (ix2 (row i) k) * wc (ix2 (col i) k)) + brow (ix2 (0 : Fin 1) (col i))

/-- The result function at row `s`, column `o`. -/
theorem G_apply (xA : Vec Ideal S16384x4096 .f32) (wc : Vec Ideal S6144x4096 .bf16) (brow : Vec Ideal S1x6144 .f32)
    (s : Fin 16384) (o : Fin 6144) :
    G xA wc brow (ix2 s o) = (∑ k : Fin 4096, xA (ix2 s k) * wc (ix2 o k)) + brow (ix2 (0 : Fin 1) o) := rfl

end Cert.KernelIdeal.ArrayValue

end
-- ==== Proof.KernelArray.lean ====
/-
  The result array of the tiled region, on the extended reals, as one function of the three arrays the region
  reads: entry (s, o) is the sum over the 4096 columns of row `s` of the activations against row `o` of the merged
  weight, plus entry `o` of the bias row. Grid point (i, j) reads rows 512 i … 512 i + 511 of the activations, rows
  512 j … 512 j + 511 of the merged weight and columns 512 j … 512 j + 511 of the bias row, and writes back the tile of
  rows 512 i … and columns 512 j … of the result; the 32 × 12 tiles fill the 16384 × 6144 array.
-/
import proofs.«178482_j49306224558199_2_alg».proof.Proof.KernelIdealBody
import proofs.«178482_j49306224558199_2_alg».proof.Proof.TileValue
import proofs.«178482_j49306224558199_2_alg».proof.Proof.ResultSpec
import Idealize.ShloMosaic.Lib.Pipeline.Value

set_option maxRecDepth 16384

noncomputable section

namespace Cert.KernelIdeal.ArrayValue

open Cert.KernelIdeal Cert.KernelIdeal.Gen Cert.KernelIdeal.Region Cert.KernelIdeal.TileValue
open Idealize.ShloMosaic Idealize.ShloMosaic.TcCoe Idealize.SL.Sem
open Idealize.ShloMosaic.Pipeline (Dat)
open Idealize.ShloMosaic.ValueIdx

/-- A stored tile is a tile of `G`: when the three tiles read are the rows `512 bi …` of the activations, the rows
    `512 bj …` of the merged weight and the columns `512 bj …` of the bias row, the entry at `y` of what the body stores
    is `G` at row `512 bi + y₀`, column `512 bj + y₁`. -/
theorem tile_is_block (xA : Vec Ideal S16384x4096 .f32) (wc : Vec Ideal S6144x4096 .bf16) (brow : Vec Ideal S1x6144 .f32)
    (x0 : Vec Ideal S512x4096 .f32) (x1 : Vec Ideal S512x4096 .bf16) (x2 : Vec Ideal S1x512 .f32) (bi bj : Nat)
    (h0 : ∀ (y : S512x4096.Idx) (k : S16384x4096.Idx), (k 0).val = bi * 512 + (y 0).val → (k 1).val = (y 1).val → x0 y = xA k)
    (h1 : ∀ (y : S512x4096.Idx) (k : S6144x4096.Idx), (k 0).val = bj * 512 + (y 0).val → (k 1).val = (y 1).val → x1 y = wc k)
    (h2 : ∀ (y : S1x512.Idx) (k : S1x6144.Idx), (k 1).val = bj * 512 + (y 1).val → x2 y = brow k)
    (y : S512x512.Idx) (i : S16384x6144.Idx) (hi0 : (i 0).val = bi * 512 + (y 0).val) (hi1 : (i 1).val = bj * 512 + (y 1).val) :
    k0_pay1 (F := Ideal) x0 x1 x2 y = G xA wc brow i := by
  obtain ⟨p, q, rfl⟩ : ∃ (p q : Fin 512), y = ix2 p q := ⟨y 0, y 1, eq_ix2 y⟩
  rw [tile_apply]
  unfold G
  congr 1
  · refine Finset.sum_congr rfl fun k _ => ?_
    rw [h0 (ix2 p k) (ix2 (row i) k) hi0 rfl, h1 (ix2 q k) (ix2 (col i) k) hi1 rfl]
  · exact h2 (ix2 (0 : Fin 1) q) (ix2 (0 : Fin 1) (col i)) hi1

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the activations' tile moves with the result's rows, the weight's and the bias
    row's with the result's columns. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 31 ∧ win0_3.index t (1 : Fin 2) ≤ 11 :=
  (by decide +kernel : ∀ t : Fin grid0.N, _)

/-- The grid is swept row-major: point `12 a + b` is tile (a, b). -/
theorem idx_at : ∀ (a : Fin 32) (b : Fin 12), ∃ t : Fin cfg0.N, t.val = a.val * 12 + b.val ∧ win0_3.index t (0 : Fin 2) = a.val ∧ win0_3.index t (1 : Fin 2) = b.val :=
  (by decide +kernel : ∀ (a : Fin 32) (b : Fin 12), ∃ t : Fin grid0.N, t.val = a.val * 12 + b.val ∧ win0_3.index t (0 : Fin 2) = a.val ∧ win0_3.index t (1 : Fin 2) = b.val)

/-- Where an entry of a tile of window 0 sits in the activations. -/
theorem emb0 (t : Fin cfg0.N) (x : S512x4096.Idx) (k : S16384x4096.Idx)
    (hk0 : (k 0).val = win0_0.index t (0 : Fin 2) * 512 + (x 0).val) (hk1 : (k 1).val = win0_0.index t (1 : Fin 2) * 4096 + (x 1).val) :
    ((cfg0.win 0).blk t).view.emb x = k := by
  funext a; apply Fin.ext
  match a with
  | ⟨0, _⟩ => show win0_0.index t (0 : Fin 2) * 512 + 1 * (x 0).val = (k 0).val; omega
  | ⟨1, _⟩ => show win0_0.index t (1 : Fin 2) * 4096 + 1 * (x 1).val = (k 1).val; omega
/-- Where an entry of a tile of window 1 sits in the merged weight. -/
theorem emb1 (t : Fin cfg0.N) (x : S512x4096.Idx) (k : S6144x4096.Idx)
    (hk0 : (k 0).val = win0_1.index t (0 : Fin 2) * 512 + (x 0).val) (hk1 : (k 1).val = win0_1.index t (1 : Fin 2) * 4096 + (x 1).val) :
    ((cfg0.win 1).blk t).view.emb x = k := by
  funext a; apply Fin.ext
  match a with
  | ⟨0, _⟩ => show win0_1.index t (0 : Fin 2) * 512 + 1 * (x 0).val = (k 0).val; omega
  | ⟨1, _⟩ => show win0_1.index t (1 : Fin 2) * 4096 + 1 * (x 1).val = (k 1).val; omega
/-- Where an entry of a piece of window 2 sits in the bias row. -/
theorem emb2 (t : Fin cfg0.N) (x : S1x512.Idx) (k : S1x6144.Idx)
    (hk0 : (k 0).val = win0_2.index t (0 : Fin 2) * 1 + (x 0).val) (hk1 : (k 1).val = win0_2.index t (1 : Fin 2) * 512 + (x 1).val) :
    ((cfg0.win 2).blk t).view.emb x = k := by
  funext a; apply Fin.ext
  match a with
  | ⟨0, _⟩ => show win0_2.index t (0 : Fin 2) * 1 + 1 * (x 0).val = (k 0).val; omega
  | ⟨1, _⟩ => show win0_2.index t (1 : Fin 2) * 512 + 1 * (x 1).val = (k 1).val; omega

/-- What grid point `t` writes back is tile `t` of `G` of the arrays the region finds. -/
theorem flushed_eq (c : Dev nD) (t : Fin cfg0.N) :
    (dats m 0 c).flushed 3 t = ((cfg0.win 3).blk t).view.read (Elt Ideal) (G (V m c main_arg0) (V m c main_v8) (V m c main_v9)) := by
  show (cfg0.win 3).cut (grid0.coords t) ((dats m 0 c).after 3 t) = _
  rw [after0_3]
  unfold out0_3
  rw [View.canon_unit_zero hz]
  simp only [View.ld_unit_zero (S := S512x4096) hz, View.ld_unit_zero (S := S1x512) hz]
  obtain ⟨e0, e1, e2, e3, e4, e5, e6, e7⟩ := idx_facts t
  funext j
  show k0_pay1 (F := Ideal) (iblk m c 0 t) (iblk m c 1 t) (iblk m c 2 t) j = G (V m c main_arg0) (V m c main_v8) (V m c main_v9) (((cfg0.win 3).blk t).view.emb j)
  refine tile_is_block (V m c main_arg0) (V m c main_v8) (V m c main_v9) (iblk m c 0 t) (iblk m c 1 t) (iblk m c 2 t)
    (win0_3.index t (0 : Fin 2)) (win0_3.index t (1 : Fin 2)) ?_ ?_ ?_ j _ ?_ ?_
  · intro y k hk0 hk1
    show V m c main_arg0 (((cfg0.win 0).blk t).view.emb y) = V m c main_arg0 k
    rw [emb0 t y k (by omega) (by omega)]
  · intro y k hk0 hk1
    show V m c main_v8 (((cfg0.win 1).blk t).view.emb y) = V m c main_v8 k
    rw [emb1 t y k (by omega) (by omega)]
  · intro y k hk1
    have hy0 : (y 0).val = 0 := by have : (y 0).val < 1 := (y 0).isLt; omega
    have hk0 : (k 0).val = 0 := by have : (k 0).val < 1 := (k 0).isLt; omega
    show V m c main_v9 (((cfg0.win 2).blk t).view.emb y) = V m c main_v9 k
    rw [emb2 t y k (by omega) (by omega)]
  · show win0_3.index t (0 : Fin 2) * 512 + 1 * (j 0).val = win0_3.index t (0 : Fin 2) * 512 + (j 0).val; omega
  · show win0_3.index t (1 : Fin 2) * 512 + 1 * (j 1).val = win0_3.index t (1 : Fin 2) * 512 + (j 1).val; omega

/-- An entry of the result is in tile `t` iff each coordinate is in the tile's range on its axis. -/
theorem mem_blk (t : Fin cfg0.N) (i : S16384x6144.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v10).slice (win0_3.rect t)).set ↔ _
  rw [View.set_slice_whole, Rect.mem_set_unit]
  exact Iff.rfl

/-- Every entry of the result is in some tile: row `r` and column `s` are in tile (r / 512, s / 512). -/
theorem cover (i : S16384x6144.Idx) : ∃ t : Fin cfg0.N, (cfg0.win 3).flush t = true ∧ i ∈ ((cfg0.win 3).blk t).view.set := by
  have hi0 : (i 0).val < 16384 := (i 0).isLt
  have hi1 : (i 1).val < 6144 := (i 1).isLt
  obtain ⟨t, -, q0, q1⟩ := idx_at ⟨(i 0).val / 512, by omega⟩ ⟨(i 1).val / 512, by omega⟩
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [q0]; show (i 0).val / 512 * 512 ≤ (i 0).val ∧ (i 0).val < (i 0).val / 512 * 512 + 512; omega
  | ⟨1, _⟩ => show win0_3.index t (1 : Fin 2) * 512 ≤ (i 1).val ∧ (i 1).val < win0_3.index t (1 : Fin 2) * 512 + 512; rw [q1]; show (i 1).val / 512 * 512 ≤ (i 1).val ∧ (i 1).val < (i 1).val / 512 * 512 + 512; omega

/-- The result array after the run is `G` of the arrays the region finds. -/
theorem final (c : Dev nD) : (dats m 0 c).arrAt 3 cfg0.N = G (V m c main_arg0) (V m c main_v8) (V m c main_v9) :=
  (dats m 0 c).arrAt_eq_of_cover 3 (G (V m c main_arg0) (V m c main_v8) (V m c main_v9)) (fun t _ => flushed_eq m c t) cover

end Cert.KernelIdeal.ArrayValue

end
-- ==== Proof.HostMerge.lean ====
/-
  The merged weight and the bias row the host lines hand to the region, on the extended reals, read at an
  entry. The low-rank update is three products stacked by rows: rows 0 … 4095 are the 4096 × 64 factor against
  rows 0 … 63 of the shared 192 × 4096 factor, rows 4096 … 5119 the first 1024 × 64 factor against rows 64 … 127,
  rows 5120 … 6143 the second 1024 × 64 factor against rows 128 … 191. The merged weight is the dense weight plus
  that update (the change of format is the identity on the extended reals); the bias row is the bias as 1 × 6144.
-/
import proofs.«178482_j49306224558199_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx

/-- The left factor's row is the product's row. -/
theorem dotQ_lrow (i : S4096x4096.Idx) (q : dot_S4096x64_S64x4096_S4096x4096_1_0_0_1_n_n.contr.Idx) : (dot_S4096x64_S64x4096_S4096x4096_1_0_0_1_n_n.lhsIdx i q 0).val = (i 0).val := by
  unfold DotDims.lhsIdx
  rw [dif_neg (show ¬(0 : Fin S4096x64.rank) ∈ dot_S4096x64_S64x4096_S4096x4096_1_0_0_1_n_n.lhsBatch by decide), dif_pos (show (0 : Fin S4096x64.rank) ∈ dot_S4096x64_S64x4096_S4096x4096_1_0_0_1_n_n.lhsNonContracting by decide)]
  rfl
/-- The right factor's column is the product's column. -/
theorem dotQ_rcol (i : S4096x4096.Idx) (q : dot_S4096x64_S64x4096_S4096x4096_1_0_0_1_n_n.contr.Idx) : (dot_S4096x64_S64x4096_S4096x4096_1_0_0_1_n_n.rhsIdx i q 1).val = (i 1).val := by
  unfold DotDims.rhsIdx
  rw [dif_neg (show ¬(1 : Fin S64x4096.rank) ∈ dot_S4096x64_S64x4096_S4096x4096_1_0_0_1_n_n.rhsBatch by decide), dif_pos (show (1 : Fin S64x4096.rank) ∈ dot_S4096x64_S64x4096_S4096x4096_1_0_0_1_n_n.rhsNonContracting by decide)]
  rfl
/-- A 4096 × 64 factor times a 64 × 4096 factor, at an entry: the sum over the 64 shared indices. -/
theorem dotQ_apply (B : FVec Ideal S4096x64 .f32) (A' : FVec Ideal S64x4096 .f32) (o : Fin 4096) (d : Fin 4096) :
    Host.dotGeneral dot_S4096x64_S64x4096_S4096x4096_1_0_0_1_n_n none B A' (ix2 o d) = ∑ r : Fin 64, B (ix2 o r) * A' (ix2 r d) := by
  simp only [Host.dotGeneral]
  rw [Ideal.dotGeneral_apply, ← Equiv.sum_comp (contrEquiv1 dot_S4096x64_S64x4096_S4096x4096_1_0_0_1_n_n 64 rfl rfl).symm]
  refine Finset.sum_congr rfl fun k _ => ?_
  have hk := contrEquiv1_symm_val dot_S4096x64_S64x4096_S4096x4096_1_0_0_1_n_n 64 rfl rfl k
  have el : dot_S4096x64_S64x4096_S4096x4096_1_0_0_1_n_n.lhsIdx (ix2 o d) ((contrEquiv1 dot_S4096x64_S64x4096_S4096x4096_1_0_0_1_n_n 64 rfl rfl).symm k) = ix2 o k := funext fun ax => Fin.ext (by
    match ax with
    | ⟨0, _⟩ => exact dotQ_lrow _ _
    | ⟨1, _⟩ => exact (dot_S4096x64_S64x4096_S4096x4096_1_0_0_1_n_n.lhsIdx_val_of_single rfl _ _).trans hk)
  have er : dot_S4096x64_S64x4096_S4096x4096_1_0_0_1_n_n.rhsIdx (ix2 o d) ((contrEquiv1 dot_S4096x64_S64x4096_S4096x4096_1_0_0_1_n_n 64 rfl rfl).symm k) = ix2 k d := funext fun ax => Fin.ext (by
    match ax with
    | ⟨0, _⟩ => exact (dot_S4096x64_S64x4096_S4096x4096_1_0_0_1_n_n.rhsIdx_val_of_single rfl _ _).trans hk
    | ⟨1, _⟩ => exact dotQ_rcol _ _)
  rw [el, er]

/-- The left factor's row is the product's row. -/
theorem dotK_lrow (i : S1024x4096.Idx) (q : dot_S1024x64_S64x4096_S1024x4096_1_0_0_1_n_n.contr.Idx) : (dot_S1024x64_S64x4096_S1024x4096_1_0_0_1_n_n.lhsIdx i q 0).val = (i 0).val := by
  unfold DotDims.lhsIdx
  rw [dif_neg (show ¬(0 : Fin S1024x64.rank) ∈ dot_S1024x64_S64x4096_S1024x4096_1_0_0_1_n_n.lhsBatch by decide), dif_pos (show (0 : Fin S1024x64.rank) ∈ dot_S1024x64_S64x4096_S1024x4096_1_0_0_1_n_n.lhsNonContracting by decide)]
  rfl
/-- The right factor's column is the product's column. -/
theorem dotK_rcol (i : S1024x4096.Idx) (q : dot_S1024x64_S64x4096_S1024x4096_1_0_0_1_n_n.contr.Idx) : (dot_S1024x64_S64x4096_S1024x4096_1_0_0_1_n_n.rhsIdx i q 1).val = (i 1).val := by
  unfold DotDims.rhsIdx
  rw [dif_neg (show ¬(1 : Fin S64x4096.rank) ∈ dot_S1024x64_S64x4096_S1024x4096_1_0_0_1_n_n.rhsBatch by decide), dif_pos (show (1 : Fin S64x4096.rank) ∈ dot_S1024x64_S64x4096_S1024x4096_1_0_0_1_n_n.rhsNonContracting by decide)]
  rfl
/-- A 1024 × 64 factor times a 64 × 4096 factor, at an entry: the sum over the 64 shared indices. -/
theorem dotK_apply (B : FVec Ideal S1024x64 .f32) (A' : FVec Ideal S64x4096 .f32) (o : Fin 1024) (d : Fin 4096) :
    Host.dotGeneral dot_S1024x64_S64x4096_S1024x4096_1_0_0_1_n_n none B A' (ix2 o d) = ∑ r : Fin 64, B (ix2 o r) * A' (ix2 r d) := by
  simp only [Host.dotGeneral]
  rw [Ideal.dotGeneral_apply, ← Equiv.sum_comp (contrEquiv1 dot_S1024x64_S64x4096_S1024x4096_1_0_0_1_n_n 64 rfl rfl).symm]
  refine Finset.sum_congr rfl fun k _ => ?_
  have hk := contrEquiv1_symm_val dot_S1024x64_S64x4096_S1024x4096_1_0_0_1_n_n 64 rfl rfl k
  have el : dot_S1024x64_S64x4096_S1024x4096_1_0_0_1_n_n.lhsIdx (ix2 o d) ((contrEquiv1 dot_S1024x64_S64x4096_S1024x4096_1_0_0_1_n_n 64 rfl rfl).symm k) = ix2 o k := funext fun ax => Fin.ext (by
    match ax with
    | ⟨0, _⟩ => exact dotK_lrow _ _
    | ⟨1, _⟩ => exact (dot_S1024x64_S64x4096_S1024x4096_1_0_0_1_n_n.lhsIdx_val_of_single rfl _ _).trans hk)
  have er : dot_S1024x64_S64x4096_S1024x4096_1_0_0_1_n_n.rhsIdx (ix2 o d) ((contrEquiv1 dot_S1024x64_S64x4096_S1024x4096_1_0_0_1_n_n 64 rfl rfl).symm k) = ix2 k d := funext fun ax => Fin.ext (by
    match ax with
    | ⟨0, _⟩ => exact (dot_S1024x64_S64x4096_S1024x4096_1_0_0_1_n_n.rhsIdx_val_of_single rfl _ _).trans hk
    | ⟨1, _⟩ => exact dotK_rcol _ _)
  rw [el, er]

/-- The low-rank update, stacked by rows. -/
def lowRank (A : FVec Ideal S192x4096 .f32) (Bq : FVec Ideal S4096x64 .f32) (Bk Bv : FVec Ideal S1024x64 .f32) : FVec Ideal S6144x4096 .f32 :=
  concatenate S6144x4096 0 [⟨S4096x4096, Host.dotGeneral dot_S4096x64_S64x4096_S4096x4096_1_0_0_1_n_n none Bq (extractStridedSlice S64x4096 ![0, 0] A slices_S192x4096_S64x4096_0_0)⟩, ⟨S1024x4096, Host.dotGeneral dot_S1024x64_S64x4096_S1024x4096_1_0_0_1_n_n none Bk (extractStridedSlice S64x4096 ![64, 0] A slices_S192x4096_S64x4096_64_0)⟩, ⟨S1024x4096, Host.dotGeneral dot_S1024x64_S64x4096_S1024x4096_1_0_0_1_n_n none Bv (extractStridedSlice S64x4096 ![128, 0] A slices_S192x4096_S64x4096_128_0)⟩] concatenates_S4096x4096_S1024x4096_S1024x4096_S6144x4096_d0

/-- The merged weight. -/
def merged (W : FVec Ideal S6144x4096 .f32) (A : FVec Ideal S192x4096 .f32) (Bq : FVec Ideal S4096x64 .f32) (Bk Bv : FVec Ideal S1024x64 .f32) : FVec Ideal S6144x4096 .bf16 :=
  truncf .bf16 (addf W (lowRank A Bq Bk Bv)) bitsLt_bf16_f32

/-- The bias as a row. -/
def biasRow (b : FVec Ideal S6144 .f32) : FVec Ideal S1x6144 .f32 := shapeCast S1x6144 b shapeCasts_S6144_S1x6144

variable (A : FVec Ideal S192x4096 .f32) (Bq : FVec Ideal S4096x64 .f32) (Bk Bv : FVec Ideal S1024x64 .f32)

set_option maxHeartbeats 2000000 in
/-- Rows 0 … 4095 of the update. -/
theorem lowRank_q (o : Fin 6144) (h : o.val < 4096) (d : Fin 4096) :
    lowRank A Bq Bk Bv (ix2 o d) = ∑ r : Fin 64, Bq (ix2 (⟨o.val, h⟩ : Fin 4096) r) * A (ix2 (⟨r.val, by omega⟩ : Fin 192) d) := by
  unfold lowRank
  refine (concatenate_apply_piece (α := Ideal .f32) (t := S6144x4096) (0 : Fin 2) [⟨S4096x4096, Host.dotGeneral dot_S4096x64_S64x4096_S4096x4096_1_0_0_1_n_n none Bq (extractStridedSlice S64x4096 ![0, 0] A slices_S192x4096_S64x4096_0_0)⟩, ⟨S1024x4096, Host.dotGeneral dot_S1024x64_S64x4096_S1024x4096_1_0_0_1_n_n none Bk (extractStridedSlice S64x4096 ![64, 0] A slices_S192x4096_S64x4096_64_0)⟩, ⟨S1024x4096, Host.dotGeneral dot_S1024x64_S64x4096_S1024x4096_1_0_0_1_n_n none Bv (extractStridedSlice S64x4096 ![128, 0] A slices_S192x4096_S64x4096_128_0)⟩] concatenates_S4096x4096_S1024x4096_S1024x4096_S6144x4096_d0 (ix2 o d) 0 (by show (0 : Nat) < 3; omega) S4096x4096 _ rfl rfl 0 rfl
    (ix2 (⟨o.val, h⟩ : Fin 4096) d) (fun b hb => ?_) ?_).trans ?_
  · match b, hb with
    | ⟨1, _⟩, _ => rfl
    | ⟨0, _⟩, hb => exact absurd rfl hb
  · show 0 + o.val = o.val; omega
  rw [dotQ_apply]
  refine Finset.sum_congr rfl fun r _ => ?_
  rw [slice2_axis0_apply 0 A slices_S192x4096_S64x4096_0_0 r d (⟨r.val, by omega⟩ : Fin 192) (by show r.val = 0 + r.val; omega)]

/-- Rows 4096 … 5119 of the update. -/
theorem lowRank_k (o : Fin 6144) (h0 : 4096 ≤ o.val) (h : o.val < 5120) (d : Fin 4096) :
    lowRank A Bq Bk Bv (ix2 o d) = ∑ r : Fin 64, Bk (ix2 (⟨o.val - 4096, by omega⟩ : Fin 1024) r) * A (ix2 (⟨64 + r.val, by omega⟩ : Fin 192) d) := by
  unfold lowRank
  refine (concatenate_apply_piece (α := Ideal .f32) (t := S6144x4096) (0 : Fin 2) [⟨S4096x4096, Host.dotGeneral dot_S4096x64_S64x4096_S4096x4096_1_0_0_1_n_n none Bq (extractStridedSlice S64x4096 ![0, 0] A slices_S192x4096_S64x4096_0_0)⟩, ⟨S1024x4096, Host.dotGeneral dot_S1024x64_S64x4096_S1024x4096_1_0_0_1_n_n none Bk (extractStridedSlice S64x4096 ![64, 0] A slices_S192x4096_S64x4096_64_0)⟩, ⟨S1024x4096, Host.dotGeneral dot_S1024x64_S64x4096_S1024x4096_1_0_0_1_n_n none Bv (extractStridedSlice S64x4096 ![128, 0] A slices_S192x4096_S64x4096_128_0)⟩] concatenates_S4096x4096_S1024x4096_S1024x4096_S6144x4096_d0 (ix2 o d) 1 (by show (1 : Nat) < 3; omega) S1024x4096 _ rfl rfl 4096 rfl
    (ix2 (⟨o.val - 4096, by omega⟩ : Fin 1024) d) (fun b hb => ?_) ?_).trans ?_
  · match b, hb with
    | ⟨1, _⟩, _ => rfl
    | ⟨0, _⟩, hb => exact absurd rfl hb
  · show 4096 + (o.val - 4096) = o.val; omega
  rw [dotK_apply]
  refine Finset.sum_congr rfl fun r _ => ?_
  rw [slice2_axis0_apply 64 A slices_S192x4096_S64x4096_64_0 r d (⟨64 + r.val, by omega⟩ : Fin 192) rfl]

/-- Rows 5120 … 6143 of the update. -/
theorem lowRank_v (o : Fin 6144) (h0 : 5120 ≤ o.val) (d : Fin 4096) :
    lowRank A Bq Bk Bv (ix2 o d) = ∑ r : Fin 64, Bv (ix2 (⟨o.val - 5120, by omega⟩ : Fin 1024) r) * A (ix2 (⟨128 + r.val, by omega⟩ : Fin 192) d) := by
  unfold lowRank
  refine (concatenate_apply_piece (α := Ideal .f32) (t := S6144x4096) (0 : Fin 2) [⟨S4096x4096, Host.dotGeneral dot_S4096x64_S64x4096_S4096x4096_1_0_0_1_n_n none Bq (extractStridedSlice S64x4096 ![0, 0] A slices_S192x4096_S64x4096_0_0)⟩, ⟨S1024x4096, Host.dotGeneral dot_S1024x64_S64x4096_S1024x4096_1_0_0_1_n_n none Bk (extractStridedSlice S64x4096 ![64, 0] A slices_S192x4096_S64x4096_64_0)⟩, ⟨S1024x4096, Host.dotGeneral dot_S1024x64_S64x4096_S1024x4096_1_0_0_1_n_n none Bv (extractStridedSlice S64x4096 ![128, 0] A slices_S192x4096_S64x4096_128_0)⟩] concatenates_S4096x4096_S1024x4096_S1024x4096_S6144x4096_d0 (ix2 o d) 2 (by show (2 : Nat) < 3; omega) S1024x4096 _ rfl rfl 5120 rfl
    (ix2 (⟨o.val - 5120, by omega⟩ : Fin 1024) d) (fun b hb => ?_) ?_).trans ?_
  · match b, hb with
    | ⟨1, _⟩, _ => rfl
    | ⟨0, _⟩, hb => exact absurd rfl hb
  · show 5120 + (o.val - 5120) = o.val; have := o.isLt; omega
  rw [dotK_apply]
  refine Finset.sum_congr rfl fun r _ => ?_
  rw [slice2_axis0_apply 128 A slices_S192x4096_S64x4096_128_0 r d (⟨128 + r.val, by omega⟩ : Fin 192) rfl]

/-- The merged weight at an entry: the dense weight's entry plus the update's. -/
theorem merged_apply (W : FVec Ideal S6144x4096 .f32) (j : S6144x4096.Idx) :
    merged W A Bq Bk Bv j = W j + lowRank A Bq Bk Bv j := rfl

/-- The bias row at column `o` is the bias at `o`. -/
theorem biasRow_apply (b : FVec Ideal S6144 .f32) (o : Fin 6144) : biasRow b (ix2 (0 : Fin 1) o) = b (ix1 o) :=
  shapeCast_a_1a_apply b shapeCasts_S6144_S1x6144 0 o

end Cert.KernelIdeal.HostValue

end
-- ==== Proof.LibNary3.lean ====
/-
  A host operation with three operands, read at its result.

  The result of an operation over a literal family of three buffers is its function applied to the three buffers'
  contents, each named at its own buffer (rather than as a function of the position in the family), so that what
  each of the three held can be rewritten further, one operation at a time.
-/
import Idealize.ShloMosaic.Lib.StableHlo.Run

noncomputable section

namespace Idealize.ShloMosaic.StableHlo

variable {τ : Topo} {sig : RefSig} {Val : EltTy → Type}
variable {x a b y : Ref sig .tc}

/-- A three-operand operation's result, the operands' contents each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a straight line of host operations, three-operand operations included: each
    operation's result at its own buffer is its function's value, at any other buffer what was there. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.KernelHostEntry.lean ====
/-
  What the region finds in the two arrays the host lines computed, on the extended reals: the merged weight
  (the dense weight plus the stacked low-rank update) and the bias as a row, each a function of the arguments as
  launched.
-/
import proofs.«178482_j49306224558199_2_alg».proof.Proof.KernelIdealEntry
import proofs.«178482_j49306224558199_2_alg».proof.Proof.HostMerge
import proofs.«178482_j49306224558199_2_alg».proof.Proof.LibNary3

noncomputable section

namespace Cert.KernelIdeal.HostValue

open Cert.KernelIdeal Cert.KernelIdeal.Gen Cert.KernelIdeal.Region Idealize.ShloMosaic Idealize.ShloMosaic.TcCoe Idealize.SL.Sem
open Idealize.ShloMosaic.StableHlo

variable (m : (ℓ : Loc nD τ sig) → Buf (Elt Ideal) ℓ)

/-- The region finds the merged weight in the second window's array. -/
theorem V_merged (c : Dev nD) :
    V m c main_v8 = merged (m ((c : Thread nD τ).loc main_arg1)) (m ((c : Thread nD τ).loc main_arg3)) (m ((c : Thread nD τ).loc main_arg4))
      (m ((c : Thread nD τ).loc main_arg5)) (m ((c : Thread nD τ).loc main_arg6)) := by
  show StableHlo.after hostOps0 (fun b => m (c, b)) (Proc.devRef .tc main_v8) = _
  after_results3
  rfl

/-- The region finds the bias row in the third window's array. -/
theorem V_biasRow (c : Dev nD) : V m c main_v9 = biasRow (m ((c : Thread nD τ).loc main_arg2)) := by
  show StableHlo.after hostOps0 (fun b => m (c, b)) (Proc.devRef .tc main_v9) = _
  after_results3
  rfl

end Cert.KernelIdeal.HostValue

end
-- ==== Proof.RefValue.lean ====
/-
  The reference's result on the extended reals, read at row `s` and column `o`: the product of row `s` of the
  activations with row `o` of the dense weight, plus the bias at `o`, plus the low-rank path — row `s` against each
  of the 64 rows of the shared factor that belong to `o`'s segment, and those 64 numbers against row `o` (counted
  inside its segment) of that segment's second factor. The segments are columns 0 … 4095, 4096 … 5119 and
  5120 … 6143, laid side by side.
-/
import proofs.«178482_j49306224558199_2_alg».proof.Proof.Gen.ReferenceIdeal.Read
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable (x0 : (⟨S16384x4096, .f32⟩ : BufTy).Contents (Elt Ideal)) (x1 : (⟨S6144x4096, .f32⟩ : BufTy).Contents (Elt Ideal)) (x2 : (⟨S6144, .f32⟩ : BufTy).Contents (Elt Ideal)) (x3 : (⟨S192x4096, .f32⟩ : BufTy).Contents (Elt Ideal)) (x4 : (⟨S4096x64, .f32⟩ : BufTy).Contents (Elt Ideal)) (x5 x6 : (⟨S1024x64, .f32⟩ : BufTy).Contents (Elt Ideal))

/-- Two rank-2 indices with equal coordinates are equal. -/
theorem ix_ext2 {n0 n1 : Nat} (f g : (⟨2, ![n0, n1]⟩ : Shape).Idx) (h0 : f 0 = g 0) (h1 : f 1 = g 1) : f = g :=
  funext fun a => match a with | ⟨0, _⟩ => h0 | ⟨1, _⟩ => h1
/-- Two rank-1 indices with equal coordinates are equal. -/
theorem ix_ext1 {n0 : Nat} (f g : (⟨1, ![n0]⟩ : Shape).Idx) (h0 : f 0 = g 0) : f = g :=
  funext fun a => match a with | ⟨0, _⟩ => h0

/-- The dense part: row `s` against row `o` of the weight, plus the bias at `o`. -/
theorem dense_apply (s : Fin 16384) (o : Fin 6144) :
    val_main_v3 (F := Ideal) x0 x1 x2 (ix2 s o) = (∑ k : Fin 4096, x0 (ix2 s k) * x1 (ix2 o k)) + x2 (ix1 o) := by
  rw [val_main_v3_apply, val_main_v0_apply, val_main_v2_apply, val_main_v1_apply]
  have e0 : ∀ k, lidx_main_v0 (ix2 s o) k = ix2 s k := fun k => ix_ext2 _ _ rfl rfl
  have e1 : ∀ k, ridx_main_v0 (ix2 s o) k = ix2 o k := fun k => ix_ext2 _ _ rfl rfl
  have e2 : idx_main_v1 (idx_main_v2 (ix2 s o)) = ix1 o := ix_ext1 _ _ rfl
  simp only [e0, e1, e2]
  rfl

/-- Row `s` of the activations against row `r` of the shared factor. -/
theorem down_apply (s : Fin 16384) (r : Fin 192) :
    val_main_v4 (F := Ideal) x0 x3 (ix2 s r) = ∑ d : Fin 4096, x0 (ix2 s d) * x3 (ix2 r d) := by
  rw [val_main_v4_apply]
  have e0 : ∀ k, lidx_main_v4 (ix2 s r) k = ix2 s k := fun k => ix_ext2 _ _ rfl rfl
  have e1 : ∀ k, ridx_main_v4 (ix2 s r) k = ix2 r k := fun k => ix_ext2 _ _ rfl rfl
  simp only [e0, e1]

/-- The first segment's 16384 × 4096 piece. -/
theorem up_q_apply (s : Fin 16384) (o : Fin 4096) :
    val_main_v6 (F := Ideal) x0 x3 x4 (ix2 s o) = ∑ r : Fin 64, (∑ d : Fin 4096, x0 (ix2 s d) * x3 (ix2 (⟨r.val, by omega⟩ : Fin 192) d)) * x4 (ix2 o r) := by
  rw [val_main_v6_apply]
  refine Finset.sum_congr rfl fun r _ => ?_
  have e0 : idx_main_v5 (lidx_main_v6 (ix2 s o) r) = ix2 s (⟨r.val, by omega⟩ : Fin 192) := ix_ext2 _ _ rfl rfl
  have e1 : ridx_main_v6 (ix2 s o) r = ix2 o r := ix_ext2 _ _ rfl rfl
  rw [val_main_v5_apply, e0, e1, down_apply]

/-- The second segment's 16384 × 1024 piece. -/
theorem up_k_apply (s : Fin 16384) (o : Fin 1024) :
    val_main_v8 (F := Ideal) x0 x3 x5 (ix2 s o) = ∑ r : Fin 64, (∑ d : Fin 4096, x0 (ix2 s d) * x3 (ix2 (⟨64 + r.val, by omega⟩ : Fin 192) d)) * x5 (ix2 o r) := by
  rw [val_main_v8_apply]
  refine Finset.sum_congr rfl fun r _ => ?_
  have e0 : idx_main_v7 (lidx_main_v8 (ix2 s o) r) = ix2 s (⟨64 + r.val, by omega⟩ : Fin 192) := ix_ext2 _ _ rfl rfl
  have e1 : ridx_main_v8 (ix2 s o) r = ix2 o r := ix_ext2 _ _ rfl rfl
  rw [val_main_v7_apply, e0, e1, down_apply]

/-- The third segment's 16384 × 1024 piece. -/
theorem up_v_apply (s : Fin 16384) (o : Fin 1024) :
    val_main_v10 (F := Ideal) x0 x3 x6 (ix2 s o) = ∑ r : Fin 64, (∑ d : Fin 4096, x0 (ix2 s d) * x3 (ix2 (⟨128 + r.val, by omega⟩ : Fin 192) d)) * x6 (ix2 o r) := by
  rw [val_main_v10_apply]
  refine Finset.sum_congr rfl fun r _ => ?_
  have e0 : idx_main_v9 (lidx_main_v10 (ix2 s o) r) = ix2 s (⟨128 + r.val, by omega⟩ : Fin 192) := ix_ext2 _ _ rfl rfl
  have e1 : ridx_main_v10 (ix2 s o) r = ix2 o r := ix_ext2 _ _ rfl rfl
  rw [val_main_v9_apply, e0, e1, down_apply]

/-- Columns 0 … 4095 of the three pieces side by side are the first piece. -/
theorem side_q (s : Fin 16384) (o : Fin 6144) (h : o.val < 4096) :
    val_main_v11 (F := Ideal) x0 x3 x4 x5 x6 (ix2 s o) = val_main_v6 (F := Ideal) x0 x3 x4 (ix2 s (⟨o.val, h⟩ : Fin 4096)) := by
  unfold val_main_v11
  refine concatenate_apply_piece (α := Ideal .f32) (t := S16384x6144) (1 : Fin 2) [⟨S16384x4096, (val_main_v6 (F := Ideal) x0 x3 x4)⟩, ⟨S16384x1024, (val_main_v8 (F := Ideal) x0 x3 x5)⟩, ⟨S16384x1024, (val_main_v10 (F := Ideal) x0 x3 x6)⟩] concatenates_S16384x4096_S16384x1024_S16384x1024_S16384x6144_d1 (ix2 s o) 0 (by show (0 : Nat) < 3; omega) S16384x4096 _ rfl rfl 0 rfl
    (ix2 s (⟨o.val, h⟩ : Fin 4096)) (fun b hb => ?_) ?_
  · match b, hb with
    | ⟨0, _⟩, _ => rfl
    | ⟨1, _⟩, hb => exact absurd rfl hb
  · show 0 + o.val = o.val; omega

/-- Columns 4096 … 5119 are the second piece. -/
theorem side_k (s : Fin 16384) (o : Fin 6144) (h0 : 4096 ≤ o.val) (h : o.val < 5120) :
    val_main_v11 (F := Ideal) x0 x3 x4 x5 x6 (ix2 s o) = val_main_v8 (F := Ideal) x0 x3 x5 (ix2 s (⟨o.val - 4096, by omega⟩ : Fin 1024)) := by
  unfold val_main_v11
  refine concatenate_apply_piece (α := Ideal .f32) (t := S16384x6144) (1 : Fin 2) [⟨S16384x4096, (val_main_v6 (F := Ideal) x0 x3 x4)⟩, ⟨S16384x1024, (val_main_v8 (F := Ideal) x0 x3 x5)⟩, ⟨S16384x1024, (val_main_v10 (F := Ideal) x0 x3 x6)⟩] concatenates_S16384x4096_S16384x1024_S16384x1024_S16384x6144_d1 (ix2 s o) 1 (by show (1 : Nat) < 3; omega) S16384x1024 _ rfl rfl 4096 rfl
    (ix2 s (⟨o.val - 4096, by omega⟩ : Fin 1024)) (fun b hb => ?_) ?_
  · match b, hb with
    | ⟨0, _⟩, _ => rfl
    | ⟨1, _⟩, hb => exact absurd rfl hb
  · show 4096 + (o.val - 4096) = o.val; omega

/-- Columns 5120 … 6143 are the third piece. -/
theorem side_v (s : Fin 16384) (o : Fin 6144) (h0 : 5120 ≤ o.val) :
    val_main_v11 (F := Ideal) x0 x3 x4 x5 x6 (ix2 s o) = val_main_v10 (F := Ideal) x0 x3 x6 (ix2 s (⟨o.val - 5120, by omega⟩ : Fin 1024)) := by
  unfold val_main_v11
  refine concatenate_apply_piece (α := Ideal .f32) (t := S16384x6144) (1 : Fin 2) [⟨S16384x4096, (val_main_v6 (F := Ideal) x0 x3 x4)⟩, ⟨S16384x1024, (val_main_v8 (F := Ideal) x0 x3 x5)⟩, ⟨S16384x1024, (val_main_v10 (F := Ideal) x0 x3 x6)⟩] concatenates_S16384x4096_S16384x1024_S16384x1024_S16384x6144_d1 (ix2 s o) 2 (by show (2 : Nat) < 3; omega) S16384x1024 _ rfl rfl 5120 rfl
    (ix2 s (⟨o.val - 5120, by omega⟩ : Fin 1024)) (fun b hb => ?_) ?_
  · match b, hb with
    | ⟨0, _⟩, _ => rfl
    | ⟨1, _⟩, hb => exact absurd rfl hb
  · show 5120 + (o.val - 5120) = o.val; have := o.isLt; omega

/-- The result is the dense part plus the side-by-side pieces. -/
theorem result_apply (s : Fin 16384) (o : Fin 6144) :
    val_main_v12 (F := Ideal) x0 x1 x2 x3 x4 x5 x6 (ix2 s o)
      = val_main_v3 (F := Ideal) x0 x1 x2 (ix2 s o) + val_main_v11 (F := Ideal) x0 x3 x4 x5 x6 (ix2 s o) := rfl

end Cert.ReferenceIdeal.RefValue

end
-- ==== Proof.LibMergeLaw.lean ====
/-
  Merging a low-rank update into a weight, on the extended reals at finite values.

  For a row `x` of activations, a row `w` of a dense weight, a bias entry `b`, and a rank-`R` update whose
  row is `∑ r, B r · A r`: the product of `x` with the merged row `w + ∑ r, B r · A r`, plus the bias, is the
  product with `w` plus the bias, plus the update applied in two steps (`x` against each `A r`, the result
  against `B`). Over the reals this is distributivity and an exchange of two finite sums; on the extended reals
  it holds at finite entries, where every term is the image of a real.
-/
import Idealize.ShloMosaic.PureOps.Ideal

namespace Cert.MergeLaw

open Finset

/-- The image in the extended reals of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The merge law over the reals. -/
theorem merge_real {D R : Type*} [Fintype D] [Fintype R] (x w : D → ℝ) (b : ℝ) (B : R → ℝ) (A : R → D → ℝ) :
    (∑ d, x d * (w d + ∑ r, B r * A r d)) + b = ((∑ d, x d * w d) + b) + ∑ r, (∑ d, x d * A r d) * B r := by
  have h : ∑ d, x d * (w d + ∑ r, B r * A r d) = (∑ d, x d * w d) + ∑ r, (∑ d, x d * A r d) * B r := by
    simp only [mul_add, Finset.sum_add_distrib, Finset.mul_sum, Finset.sum_mul]
    congr 1
    rw [Finset.sum_comm]
    exact Finset.sum_congr rfl fun r _ => Finset.sum_congr rfl fun d _ => by ring
  rw [h]; ring

/-- The merge law on the extended reals, at entries that are images of reals. -/
theorem merge_ereal {D R : Type*} [Fintype D] [Fintype R] (x w : D → ℝ) (b : ℝ) (B : R → ℝ) (A : R → D → ℝ) :
    (∑ d, (x d : EReal) * ((w d : EReal) + ∑ r, (B r : EReal) * (A r d : EReal))) + (b : EReal)
      = ((∑ d, (x d : EReal) * (w d : EReal)) + (b : EReal)) + ∑ r, (∑ d, (x d : EReal) * (A r d : EReal)) * (B r : EReal) := by
  simp only [← EReal.coe_mul, ← coe_sum, ← EReal.coe_add]
  exact congrArg _ (merge_real x w b B A)

end Cert.MergeLaw
-- ==== Proof.Bridge.lean ====
/-
  The two results are one function of the arguments, at finite arguments.

  At row `s` and column `o`, with `o` in a segment whose second factor is `B` and whose 64 rows of the shared
  factor are `A`: the kernel's entry is `∑ₖ x[s,k] · (W[o,k] + ∑ᵣ B[o,r] · A[r,k]) + bias[o]` and the reference's is
  `(∑ₖ x[s,k] · W[o,k] + bias[o]) + ∑ᵣ (∑ₖ x[s,k] · A[r,k]) · B[o,r]`. When every entry is a real these are equal: the
  product distributes over the merged row and the two finite sums exchange. (At infinite entries the law can
  fail, which is why the arguments are taken as images of real arrays here.)
-/
import proofs.«178482_j49306224558199_2_alg».proof.Proof.ResultSpec
import proofs.«178482_j49306224558199_2_alg».proof.Proof.HostMerge
import proofs.«178482_j49306224558199_2_alg».proof.Proof.RefValue
import proofs.«178482_j49306224558199_2_alg».proof.Proof.LibMergeLaw

noncomputable section

namespace Cert.Bridge

open Idealize.ShloMosaic Idealize.ShloMosaic.ValueIdx
open Cert.KernelIdeal.ArrayValue Cert.KernelIdeal.HostValue Cert.ReferenceIdeal.RefValue

/-- A real array as an array of extended reals. -/
def lift {S : Shape} (f : S.Idx → ℝ) : S.Idx → EReal := fun i => (f i : EReal)

variable (r0 : (⟨2, ![16384, 4096]⟩ : Shape).Idx → ℝ) (r1 : (⟨2, ![6144, 4096]⟩ : Shape).Idx → ℝ) (r2 : (⟨1, ![6144]⟩ : Shape).Idx → ℝ)
  (r3 : (⟨2, ![192, 4096]⟩ : Shape).Idx → ℝ) (r4 : (⟨2, ![4096, 64]⟩ : Shape).Idx → ℝ) (r5 r6 : (⟨2, ![1024, 64]⟩ : Shape).Idx → ℝ)

/-- The two results agree at every entry. -/
theorem entry_eq (s : Fin 16384) (o : Fin 6144) :
    G (lift r0) (merged (lift r1) (lift r3) (lift r4) (lift r5) (lift r6)) (biasRow (lift r2)) (ix2 s o)
      = Cert.ReferenceIdeal.Read.val_main_v12 (F := Ideal) (lift r0) (lift r1) (lift r2) (lift r3) (lift r4) (lift r5) (lift r6) (ix2 s o) := by
  rw [G_apply, result_apply, dense_apply, biasRow_apply]
  simp only [merged_apply]
  by_cases h1 : o.val < 4096
  · rw [side_q _ _ _ _ _ s o h1, up_q_apply]
    simp only [lowRank_q _ _ _ _ o h1]
    exact Cert.MergeLaw.merge_ereal (fun k => r0 (ix2 s k)) (fun k => r1 (ix2 o k)) (r2 (ix1 o))
      (fun r => r4 (ix2 (⟨o.val, h1⟩ : Fin 4096) r)) (fun r k => r3 (ix2 (⟨r.val, by omega⟩ : Fin 192) k))
  · by_cases h2 : o.val < 5120
    · rw [side_k _ _ _ _ _ s o (by omega) h2, up_k_apply]
      simp only [lowRank_k _ _ _ _ o (by omega) h2]
      exact Cert.MergeLaw.merge_ereal (fun k => r0 (ix2 s k)) (fun k => r1 (ix2 o k)) (r2 (ix1 o))
        (fun r => r5 (ix2 (⟨o.val - 4096, by omega⟩ : Fin 1024) r)) (fun r k => r3 (ix2 (⟨64 + r.val, by omega⟩ : Fin 192) k))
    · rw [side_v _ _ _ _ _ s o (by omega), up_v_apply]
      simp only [lowRank_v _ _ _ _ o (by omega)]
      exact Cert.MergeLaw.merge_ereal (fun k => r0 (ix2 s k)) (fun k => r1 (ix2 o k)) (r2 (ix1 o))
        (fun r => r6 (ix2 (⟨o.val - 5120, by have := o.isLt; omega⟩ : Fin 1024) r)) (fun r k => r3 (ix2 (⟨128 + r.val, by omega⟩ : Fin 192) k))

/-- The two results are one array. -/
theorem result_eq :
    G (lift r0) (merged (lift r1) (lift r3) (lift r4) (lift r5) (lift r6)) (biasRow (lift r2))
      = Cert.ReferenceIdeal.Read.val_main_v12 (F := Ideal) (lift r0) (lift r1) (lift r2) (lift r3) (lift r4) (lift r5) (lift r6) := by
  funext i
  obtain ⟨s, o, rfl⟩ : ∃ (s : Fin 16384) (o : Fin 6144), i = ix2 s o := ⟨i 0, i 1, eq_ix2 i⟩
  exact entry_eq r0 r1 r2 r3 r4 r5 r6 s o

/-- An array of extended reals whose entries are all reals is the image of a real array. -/
theorem exists_lift {S : Shape} (a : S.Idx → EReal) (h : ∀ i, ∃ r : ℝ, a i = (r : EReal)) : ∃ f : S.Idx → ℝ, a = lift f :=
  ⟨fun i => (h i).choose, funext fun i => (h i).choose_spec⟩

/-- The two results are one array whenever every entry of every argument is a real. -/
theorem result_eq_of_real (a0 : (⟨2, ![16384, 4096]⟩ : Shape).Idx → EReal) (a1 : (⟨2, ![6144, 4096]⟩ : Shape).Idx → EReal) (a2 : (⟨1, ![6144]⟩ : Shape).Idx → EReal)
    (a3 : (⟨2, ![192, 4096]⟩ : Shape).Idx → EReal) (a4 : (⟨2, ![4096, 64]⟩ : Shape).Idx → EReal) (a5 a6 : (⟨2, ![1024, 64]⟩ : Shape).Idx → EReal)
    (h0 : ∀ i, ∃ r : ℝ, a0 i = (r : EReal)) (h1 : ∀ i, ∃ r : ℝ, a1 i = (r : EReal)) (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) (h6 : ∀ i, ∃ r : ℝ, a6 i = (r : EReal)) :
    G a0 (merged a1 a3 a4 a5 a6) (biasRow a2) = Cert.ReferenceIdeal.Read.val_main_v12 (F := Ideal) a0 a1 a2 a3 a4 a5 a6 := by
  obtain ⟨f0, rfl⟩ := exists_lift a0 h0
  obtain ⟨f1, rfl⟩ := exists_lift a1 h1
  obtain ⟨f2, rfl⟩ := exists_lift a2 h2
  obtain ⟨f3, rfl⟩ := exists_lift a3 h3
  obtain ⟨f4, rfl⟩ := exists_lift a4 h4
  obtain ⟨f5, rfl⟩ := exists_lift a5 h5
  obtain ⟨f6, rfl⟩ := exists_lift a6 h6
  exact result_eq f0 f1 f2 f3 f4 f5 f6

end Cert.Bridge

end
-- ==== Proof.FiniteInputs.lean ====
/-
  What the precondition says, on the extended reals: it is the conjunction, over the seven arguments, of
  "every entry's absolute value is below +∞"; an extended real whose absolute value is below +∞ is neither
  infinity, so it is (the image of) a real number. Hence under the precondition every entry of every argument
  is a real.
-/
import proofs.«178482_j49306224558199_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

variable [Facts]
open Facts

instance : Subsingleton S_.Idx := ⟨fun a b => funext fun d => d.elim0⟩

/-- An extended real whose absolute value is below +∞ is a real. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of every argument is a real. -/
theorem entries_real (a0 : FVec Ideal S16384x4096 .f32) (a1 : FVec Ideal S6144x4096 .f32) (a2 : FVec Ideal S6144 .f32) (a3 : FVec Ideal S192x4096 .f32)
    (a4 : FVec Ideal S4096x64 .f32) (a5 a6 : FVec Ideal S1024x64 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h' := congrFun h ValueIdx.ix0
  dsimp only [fn, fn_part1, Idealize.ShloMosaic.andi] at h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨fun i => real_of_abs_lt_top _ (Host.reduce_andi_all _ _ _ _ _ e0 i),
    fun i => real_of_abs_lt_top _ (Host.reduce_andi_all _ _ _ _ _ e1 i),
    fun i => real_of_abs_lt_top _ (Host.reduce_andi_all _ _ _ _ _ e2 i),
    fun i => real_of_abs_lt_top _ (Host.reduce_andi_all _ _ _ _ _ e3 i),
    fun i => real_of_abs_lt_top _ (Host.reduce_andi_all _ _ _ _ _ e4 i),
    fun i => real_of_abs_lt_top _ (Host.reduce_andi_all _ _ _ _ _ e5 i),
    fun i => real_of_abs_lt_top _ (Host.reduce_andi_all _ _ _ _ _ e6 i)⟩

end Cert.Pre_finite_inputs.Finite

end
-- ==== Proof.Claims.lean ====
/-
  The five claims. The three frames: each program runs to the end without a fault and leaves its arguments
  unchanged (the two kernel programs by the run of their tiled region, the reference by its straight-line run).
  The idealized kernel is the kernel's own text read on the extended reals, so nothing is owed for it. And at
  finite arguments the idealized kernel and the idealized reference end with one result: the kernel's array is
  the activations against the transpose of the merged weight plus the bias row, the reference's is the dense
  product plus bias plus the low-rank path, and the two are equal entry by entry by the merge law.
-/
import proofs.«178482_j49306224558199_2_alg».proof.Defs
import proofs.«178482_j49306224558199_2_alg».proof.Proof.KernelBody
import proofs.«178482_j49306224558199_2_alg».proof.Proof.KernelArray
import proofs.«178482_j49306224558199_2_alg».proof.Proof.KernelHostEntry
import proofs.«178482_j49306224558199_2_alg».proof.Proof.Bridge
import proofs.«178482_j49306224558199_2_alg».proof.Proof.FiniteInputs
import proofs.«178482_j49306224558199_2_alg».proof.Proof.Gen.Kernel
import proofs.«178482_j49306224558199_2_alg».proof.Proof.Gen.KernelIdeal
import proofs.«178482_j49306224558199_2_alg».proof.Proof.Gen.ReferenceIdeal
import proofs.«178482_j49306224558199_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array after its run, as a function of the arguments as launched. -/
theorem kernel_result (m : (ℓ : Loc Cert.KernelIdeal.nD Cert.KernelIdeal.τ Cert.KernelIdeal.sig) → Buf (Elt Ideal) ℓ) (c : Dev Cert.KernelIdeal.nD) :
    (Cert.KernelIdeal.Region.dats m 0 c).arrAt 3 Cert.KernelIdeal.cfg0.N
      = Cert.KernelIdeal.ArrayValue.G (m ((c.tc : Thread Cert.KernelIdeal.nD Cert.KernelIdeal.τ).loc Cert.KernelIdeal.main_arg0))
          (Cert.KernelIdeal.HostValue.merged (m ((c.tc : Thread Cert.KernelIdeal.nD Cert.KernelIdeal.τ).loc Cert.KernelIdeal.main_arg1))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)))
          (Cert.KernelIdeal.HostValue.biasRow (m ((c.tc : Thread Cert.KernelIdeal.nD Cert.KernelIdeal.τ).loc Cert.KernelIdeal.main_arg2))) := by
  rw [Cert.KernelIdeal.ArrayValue.final, Cert.KernelIdeal.Region.V_main_arg0, Cert.KernelIdeal.HostValue.V_merged, Cert.KernelIdeal.HostValue.V_biasRow]

theorem algebraic : Cert.algebraic_KernelIdeal_ReferenceIdeal := by
  intro m ρ m' ρ' hpre hagree
  refine ⟨fun c => Cert.KernelIdeal.ArrayValue.G (m ((c.tc : Thread Cert.KernelIdeal.nD Cert.KernelIdeal.τ).loc Cert.KernelIdeal.main_arg0))
          (Cert.KernelIdeal.HostValue.merged (m ((c.tc : Thread Cert.KernelIdeal.nD Cert.KernelIdeal.τ).loc Cert.KernelIdeal.main_arg1))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)))
          (Cert.KernelIdeal.HostValue.biasRow (m ((c.tc : Thread Cert.KernelIdeal.nD Cert.KernelIdeal.τ).loc Cert.KernelIdeal.main_arg2))), ?_, ?_⟩
  · exact (θ_run Cert.KernelIdeal.defs _ _).mono (fun _ h c => ⟨(h c).1.trans (kernel_result m c), (h c).2⟩)
      (Cert.KernelIdeal.Region.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, (hagree c).1, (hagree c).2.1, (hagree c).2.2.1, (hagree c).2.2.2.1,
      (hagree c).2.2.2.2.1, (hagree c).2.2.2.2.2.1, (hagree c).2.2.2.2.2.2]
    obtain ⟨h0, h1, h2, h3, h4, h5, h6⟩ := Cert.Pre_finite_inputs.Finite.entries_real _ _ _ _ _ _ _ (hpre c)
    exact (Cert.Bridge.result_eq_of_real _ _ _ _ _ _ _ h0 h1 h2 h3 h4 h5 h6).symm

end Cert.Proof.Claims

end
-- ==== Proof.lean ====
/-
  A fused projection with a low-rank update, against its reference, on the extended reals.

  The kernel program merges the update into the weight on the host — three small products of the second factors
  with the three 64-row bands of the shared factor, stacked by rows and added to the dense weight — and then runs
  one tiled product: over a 32 × 12 grid, a 512 × 4096 tile of the activations against a 512 × 4096 tile of the merged
  weight, transposed, plus a 1 × 512 piece of the bias row, stored as one 512 × 512 tile of the result. The reference
  computes the dense product plus bias and adds the low-rank path applied in two steps, its three segments laid
  side by side. With every argument entry finite the two results are the same array, by distributivity and an
  exchange of two finite sums over the reals. The claims are proved in Proof/Claims.lean; here they are put
  behind the witnesses of the programs' stated side conditions.
-/
import proofs.«178482_j49306224558199_2_alg».proof.Defs
import proofs.«178482_j49306224558199_2_alg».proof.Proof.Claims
import proofs.«178482_j49306224558199_2_alg».proof.Proof.Gen.Kernel
import proofs.«178482_j49306224558199_2_alg».proof.Proof.Gen.KernelIdeal
import proofs.«178482_j49306224558199_2_alg».proof.Proof.Gen.ReferenceIdeal
import proofs.«178482_j49306224558199_2_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
